-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8192x256 : Shape := ⟨3, ![32, 8192, 256]⟩
abbrev S32x256x128 : Shape := ⟨3, ![32, 256, 128]⟩
abbrev S32x128 : Shape := ⟨2, ![32, 128]⟩
abbrev S32x128x1 : Shape := ⟨3, ![32, 128, 1]⟩
abbrev S32x1 : Shape := ⟨2, ![32, 1]⟩
abbrev S_ : Shape := ⟨0, ![]⟩

class Facts : Prop where
  bcast_S_S32x8192x256 : S_.BroadcastsInDim S32x8192x256 (![] : Fin 0 → Fin S32x8192x256.rank)
  reducesTo_S32x8192x256_S_d0_1_2 : S32x8192x256.ReducesTo [0, 1, 2] S_
  h_S_ : 0 < S_.numel
  bcast_S_S32x256x128 : S_.BroadcastsInDim S32x256x128 (![] : Fin 0 → Fin S32x256x128.rank)
  reducesTo_S32x256x128_S_d0_1_2 : S32x256x128.ReducesTo [0, 1, 2] S_
  bcast_S_S32x128 : S_.BroadcastsInDim S32x128 (![] : Fin 0 → Fin S32x128.rank)
  reducesTo_S32x128_S_d0_1 : S32x128.ReducesTo [0, 1] S_
  bcast_S_S32x128x1 : S_.BroadcastsInDim S32x128x1 (![] : Fin 0 → Fin S32x128x1.rank)
  reducesTo_S32x128x1_S_d0_1_2 : S32x128x1.ReducesTo [0, 1, 2] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S32x1 .f32) (main_v13 : IVec S_ 1) (main_v16 : IVec S32x128x1 1) : IVec S_ 1 :=
  let main_c_5 : IVec S_ 1 := constantI S_ 1 1#1
  let main_v17 : IVec S_ 1 := (fun x v => Host.reduce IntOp.andi x v reducesTo_S32x128x1_S_d0_1_2 h_S_) main_v16 main_c_5
  let main_v18 : IVec S_ 1 := andi main_v13 main_v17
  let main_v19 : FVec F S32x1 .f32 := Host.absf main_arg4
  let main_cst_6 : FVec F S_ .f32 := constant S_ .f32 0x7F800000#32
  let main_v20 : FVec F S32x1 .f32 := broadcastInDim S32x1 ![] bcast_S_S32x1 main_cst_6
  let main_v21 : IVec S32x1 1 := cmpf .olt main_v19 main_v20
  let main_c_7 : IVec S_ 1 := constantI S_ 1 1#1
  let main_v22 : IVec S_ 1 := (fun x v => Host.reduce IntOp.andi x v reducesTo_S32x1_S_d0_1 h_S_) main_v21 main_c_7
  let main_v23 : IVec S_ 1 := andi main_v18 main_v22
  main_v23

def fn {F : FTy → Type} [FloatOps F] (main_arg0 : FVec F S32x8192x256 .f32) (main_arg1 : FVec F S32x256x128 .f32) (main_arg2 : FVec F S32x128 .f32) (main_arg3 : FVec F S32x128x1 .f32) (main_arg4 : FVec F S32x1 .f32) : IVec S_ 1 :=
  let main_v0 : FVec F S32x8192x256 .f32 := Host.absf main_arg0
  let main_cst : FVec F S_ .f32 := constant S_ .f32 0x7F800000#32
  let main_v1 : FVec F S32x8192x256 .f32 := broadcastInDim S32x8192x256 ![] bcast_S_S32x8192x256 main_cst
  let main_v2 : IVec S32x8192x256 1 := cmpf .olt main_v0 main_v1
  let main_c : IVec S_ 1 := constantI S_ 1 1#1
  let main_v3 : IVec S_ 1 := (fun x v => Host.reduce IntOp.andi x v reducesTo_S32x8192x256_S_d0_1_2 h_S_) main_v2 main_c
  let main_v4 : FVec F S32x256x128 .f32 := Host.absf main_arg1
  let main_cst_0 : FVec F S_ .f32 := constant S_ .f32 0x7F800000#32
  let main_v5 : FVec F S32x256x128 .f32 := broadcastInDim S32x256x128 ![] bcast_S_S32x256x128 main_cst_0
  let main_v6 : IVec S32x256x128 1 := cmpf .olt main_v4 main_v5
  let main_c_1 : IVec S_ 1 := constantI S_ 1 1#1
  let main_v7 : IVec S_ 1 := (fun x v => Host.reduce IntOp.andi x v reducesTo_S32x256x128_S_d0_1_2 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128x1 .f32 := Host.absf main_arg3
  let main_cst_4 : FVec F S_ .f32 := constant S_ .f32 0x7F800000#32
  let main_v15 : FVec F S32x128x1 .f32 := broadcastInDim S32x128x1 ![] bcast_S_S32x128x1 main_cst_4
  let main_v16 : IVec S32x128x1 1 := cmpf .olt main_v14 main_v15
  fn_part1 (F := F) main_arg4 main_v13 main_v16
-- ==== Kernel.lean ====
abbrev S32x8192x256 : Shape := ⟨3, ![32, 8192, 256]⟩
abbrev S32x256x128 : Shape := ⟨3, ![32, 256, 128]⟩
abbrev S32x128 : Shape := ⟨2, ![32, 128]⟩
abbrev S32x128x1 : Shape := ⟨3, ![32, 128, 1]⟩
abbrev S32x1 : Shape := ⟨2, ![32, 1]⟩
abbrev S32x1x128 : Shape := ⟨3, ![32, 1, 128]⟩
abbrev S32x1x1 : Shape := ⟨3, ![32, 1, 1]⟩
abbrev S32x1x8192 : Shape := ⟨3, ![32, 1, 8192]⟩
abbrev S1x2048x256 : Shape := ⟨3, ![1, 2048, 256]⟩
abbrev S1x256x128 : Shape := ⟨3, ![1, 256, 128]⟩
abbrev S1x1x128 : Shape := ⟨3, ![1, 1, 128]⟩
abbrev S1x128x1 : Shape := ⟨3, ![1, 128, 1]⟩
abbrev S1x1x1 : Shape := ⟨3, ![1, 1, 1]⟩
abbrev S1x1x2048 : Shape := ⟨3, ![1, 1, 2048]⟩
abbrev S2048x256 : Shape := ⟨2, ![2048, 256]⟩
abbrev S256x128 : Shape := ⟨2, ![256, 128]⟩
abbrev S2048x128 : Shape := ⟨2, ![2048, 128]⟩
abbrev S1x128 : Shape := ⟨2, ![1, 128]⟩
abbrev S128x1 : Shape := ⟨2, ![128, 1]⟩
abbrev S2048x1 : Shape := ⟨2, ![2048, 1]⟩
abbrev S1x1 : Shape := ⟨2, ![1, 1]⟩
abbrev S2048 : Shape := ⟨1, ![2048]⟩
abbrev S1x2048 : Shape := ⟨2, ![1, 2048]⟩
abbrev S32x8192 : Shape := ⟨2, ![32, 8192]⟩

abbrev nBuf : Space → Nat
  | .hbm => 9
  | .vmem => 12
  | .smem => 0
  | _ => 0

abbrev bufTy : (tb : Table) → Fin (tcTables nBuf tb) → BufTy
  | .hbm, ⟨0, _⟩ => ⟨S32x8192x256, .f32⟩
  | .hbm, ⟨1, _⟩ => ⟨S32x256x128, .f32⟩
  | .hbm, ⟨2, _⟩ => ⟨S32x128, .f32⟩
  | .hbm, ⟨3, _⟩ => ⟨S32x128x1, .f32⟩
  | .hbm, ⟨4, _⟩ => ⟨S32x1, .f32⟩
  | .hbm, ⟨5, _⟩ => ⟨S32x1x128, .f32⟩
  | .hbm, ⟨6, _⟩ => ⟨S32x1x1, .f32⟩
  | .hbm, ⟨7, _⟩ => ⟨S32x1x8192, .f32⟩
  | .hbm, ⟨8, _⟩ => ⟨S32x8192, .f32⟩
  | .local _ .vmem, ⟨0, _⟩ => ⟨S1x2048x256, .f32⟩
  | .local _ .vmem, ⟨1, _⟩ => ⟨S1x2048x256, .f32⟩
  | .local _ .vmem, ⟨2, _⟩ => ⟨S1x256x128, .f32⟩
  | .local _ .vmem, ⟨3, _⟩ => ⟨S1x256x128, .f32⟩
  | .local _ .vmem, ⟨4, _⟩ => ⟨S1x1x128, .f32⟩
  | .local _ .vmem, ⟨5, _⟩ => ⟨S1x1x128, .f32⟩
  | .local _ .vmem, ⟨6, _⟩ => ⟨S1x128x1, .f32⟩
  | .local _ .vmem, ⟨7, _⟩ => ⟨S1x128x1, .f32⟩
  | .local _ .vmem, ⟨8, _⟩ => ⟨S1x1x1, .f32⟩
  | .local _ .vmem, ⟨9, _⟩ => ⟨S1x1x1, .f32⟩
  | .local _ .vmem, ⟨10, _⟩ => ⟨S1x1x2048, .f32⟩
  | .local _ .vmem, ⟨11, _⟩ => ⟨S1x1x2048, .f32⟩
  | _, _ => ⟨S32x8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x128x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S32x128_S32x1x128 : S32x128.ShapeCasts S32x1x128
  shapeCasts_S32x1_S32x1x1 : S32x1.ShapeCasts S32x1x1
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  bitsLt_bf16_f32 : FTy.bits .bf16 < FTy.bits .f32
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  broadcasts_S1x128_S2048x128 : S1x128.Broadcasts S2048x128
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  broadcasts_S1x1_S2048x1 : S1x1.Broadcasts S2048x1
  shapeCasts_S2048x1_S2048 : S2048x1.ShapeCasts S2048
  shapeCasts_S2048_S1x2048 : S2048.ShapeCasts S1x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  shapeCasts_S1x2048_S1x1x2048 : S1x2048.ShapeCasts S1x1x2048
  shapeCasts_S32x1x8192_S32x8192 : S32x1x8192.ShapeCasts S32x8192
  dot_S2048x256_S256x128_S2048x128_1_0_0_1_n_n_wf : DotDims.WF S2048x256 S256x128 S2048x128 [1] [0] [0] [1] [] []
  dot_S2048x128_S128x1_S2048x1_1_0_0_1_n_n_wf : DotDims.WF S2048x128 S128x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S32x8192x256.size a
  hwx0_0 : ∀ i : grid0.Coords, EltTy.bits .f32 = 32 ∨ (Rect.block (s := S32x8192x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x128.size a ≤ S32x256x128.size a
  hwx0_1 : ∀ i : grid0.Coords, EltTy.bits .f32 = 32 ∨ (Rect.block (s := S32x256x128) S1x256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S32x1x128.size a
  hwx0_2 : ∀ i : grid0.Coords, EltTy.bits .f32 = 32 ∨ (Rect.block (s := S32x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128x1.size a ≤ S32x128x1.size a
  hwx0_3 : ∀ i : grid0.Coords, EltTy.bits .f32 = 32 ∨ (Rect.block (s := S32x128x1) S1x128x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S32x1x1.size a
  hwx0_4 : ∀ i : grid0.Coords, EltTy.bits .f32 = 32 ∨ (Rect.block (s := S32x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x2048.size a ≤ S32x1x8192.size a
  hwx0_5 : ∀ i : grid0.Coords, EltTy.bits .f32 = 32 ∨ (Rect.block (s := S32x1x8192) S1x1x2048.size (cc0_transform_5 i) (hinb0_5 i)).WholeWords (EltTy.packing .f32)

variable [Facts₀]

def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x1_S2048x1_1_0_0_1_n_n : DotDims S2048x128 S128x1 S2048x1 where
  lhsContracting := [1]
  rhsContracting := [0]
  lhsNonContracting := [0]
  rhsNonContracting := [1]
  lhsBatch := []
  rhsBatch := []
  wf := dot_S2048x128_S128x1_S2048x1_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x128x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x1x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x8192x256 : Shape := ⟨3, ![32, 8192, 256]⟩
abbrev S32x256x128 : Shape := ⟨3, ![32, 256, 128]⟩
abbrev S32x128 : Shape := ⟨2, ![32, 128]⟩
abbrev S32x128x1 : Shape := ⟨3, ![32, 128, 1]⟩
abbrev S32x1 : Shape := ⟨2, ![32, 1]⟩
abbrev S32x8192x128 : Shape := ⟨3, ![32, 8192, 128]⟩
abbrev S32x1x128 : Shape := ⟨3, ![32, 1, 128]⟩
abbrev S_ : Shape := ⟨0, ![]⟩
abbrev S32x8192x1 : Shape := ⟨3, ![32, 8192, 1]⟩
abbrev S32x1x1 : Shape := ⟨3, ![32, 1, 1]⟩
abbrev S32x8192 : Shape := ⟨2, ![32, 8192]⟩

abbrev nBuf : Space → Nat
  | .hbm => 23
  | .vmem => 0
  | .smem => 0
  | _ => 0

abbrev bufTy : (tb : Table) → Fin (tcTables nBuf tb) → BufTy
  | .hbm, ⟨0, _⟩ => ⟨S32x8192x256, .f32⟩
  | .hbm, ⟨1, _⟩ => ⟨S32x256x128, .f32⟩
  | .hbm, ⟨2, _⟩ => ⟨S32x128, .f32⟩
  | .hbm, ⟨3, _⟩ => ⟨S32x128x1, .f32⟩
  | .hbm, ⟨4, _⟩ => ⟨S32x1, .f32⟩
  | .hbm, ⟨5, _⟩ => ⟨S32x8192x128, .f32⟩
  | .hbm, ⟨6, _⟩ => ⟨S32x1x128, .f32⟩
  | .hbm, ⟨7, _⟩ => ⟨S32x8192x128, .f32⟩
  | .hbm, ⟨8, _⟩ => ⟨S32x8192x128, .f32⟩
  | .hbm, ⟨9, _⟩ => ⟨S32x8192x128, .f32⟩
  | .hbm, ⟨10, _⟩ => ⟨S32x8192x128, .f32⟩
  | .hbm, ⟨11, _⟩ => ⟨S_, .f32⟩
  | .hbm, ⟨12, _⟩ => ⟨S32x8192x128, .f32⟩
  | .hbm, ⟨13, _⟩ => ⟨S32x8192x128, .f32⟩
  | .hbm, ⟨14, _⟩ => ⟨S_, .f32⟩
  | .hbm, ⟨15, _⟩ => ⟨S32x8192x128, .f32⟩
  | .hbm, ⟨16, _⟩ => ⟨S32x8192x128, .f32⟩
  | .hbm, ⟨17, _⟩ => ⟨S32x8192x128, .f32⟩
  | .hbm, ⟨18, _⟩ => ⟨S32x8192x1, .f32⟩
  | .hbm, ⟨19, _⟩ => ⟨S32x1x1, .f32⟩
  | .hbm, ⟨20, _⟩ => ⟨S32x8192x1, .f32⟩
  | .hbm, ⟨21, _⟩ => ⟨S32x8192x1, .f32⟩
  | .hbm, ⟨22, _⟩ => ⟨S32x8192, .f32⟩
  | _, _ => ⟨S32x8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩

abbrev nD : Nat := 1
abbrev τ : Topo := Topo.v7x

variable {F : FTy → Type} [FloatOps F]

class Facts₀ : Prop where
  bcast_S32x128_S32x1x128_0_2 : S32x128.BroadcastsInDim S32x1x128 (![0, 2] : Fin 2 → Fin S32x1x128.rank)
  bcast_S32x1x128_S32x8192x128_0_1_2 : S32x1x128.BroadcastsInDim S32x8192x128 (![0, 1, 2] : Fin 3 → Fin S32x8192x128.rank)
  bcast_S_S32x8192x128 : S_.BroadcastsInDim S32x8192x128 (![] : Fin 0 → Fin S32x8192x128.rank)
  bcast_S32x1_S32x1x1_0_2 : S32x1.BroadcastsInDim S32x1x1 (![0, 2] : Fin 2 → Fin S32x1x1.rank)
  bcast_S32x1x1_S32x8192x1_0_1_2 : S32x1x1.BroadcastsInDim S32x8192x1 (![0, 1, 2] : Fin 3 → Fin S32x8192x1.rank)
  shapeCasts_S32x8192x1_S32x8192 : S32x8192x1.ShapeCasts S32x8192
  dot_S32x8192x256_S32x256x128_S32x8192x128_2_1_1_2_0_0_wf : DotDims.WF S32x8192x256 S32x256x128 S32x8192x128 [2] [1] [1] [2] [0] [0]
  dot_S32x8192x128_S32x128x1_S32x8192x1_2_1_1_2_0_0_wf : DotDims.WF S32x8192x128 S32x128x1 S32x8192x1 [2] [1] [1] [2] [0] [0]

variable [Facts₀]

def dot_S32x8192x256_S32x256x128_S32x8192x128_2_1_1_2_0_0 : DotDims S32x8192x256 S32x256x128 S32x8192x128 where
  lhsContracting := [2]
  rhsContracting := [1]
  lhsNonContracting := [1]
  rhsNonContracting := [2]
  lhsBatch := [0]
  rhsBatch := [0]
  wf := dot_S32x8192x256_S32x256x128_S32x8192x128_2_1_1_2_0_0_wf
def dot_S32x8192x128_S32x128x1_S32x8192x1_2_1_1_2_0_0 : DotDims S32x8192x128 S32x128x1 S32x8192x1 where
  lhsContracting := [2]
  rhsContracting := [1]
  lhsNonContracting := [1]
  rhsNonContracting := [2]
  lhsBatch := [0]
  rhsBatch := [0]
  wf := dot_S32x8192x128_S32x128x1_S32x8192x1_2_1_1_2_0_0_wf

class Facts : Prop extends Facts₀ where

variable [Facts]
-- ==== Proof.MlpSpec.lean ====
/-
  The two-layer perceptron both programs compute, as one function on the extended reals.

  For a time step `t`, a batch row `b` and a hidden unit `h` the hidden pre-activation is
  `z = (∑ s, x[t,b,s] · W1[t,s,h]) + β1 t h`; the activation is SiLU, `z · σ(z)` with `σ` the logistic function
  `1 / (1 + e^(-z))`; the output is `(∑ h, silu z · W2[t,h,0]) + β2 t`. The two biases are taken as functions of their
  coordinates, so that the same term serves a bias stored as a [32, 128] array and one stored with a unit middle axis.
  Nothing here needs finiteness: both programs perform the same sums and products in the same order, so the equation
  holds at every extended real.
-/
import Idealize.ShloMosaic.PureOps.Ideal
import Idealize.ShloMosaic.Lib.ValueIdx

noncomputable section

open scoped BigOperators

namespace Cert.Mlp

open Idealize.ShloMosaic Idealize.ShloMosaic.ValueIdx

/-- SiLU on the extended reals: `z · σ(z)`, `σ` the logistic function. -/
def silu (z : EReal) : EReal := z * Ideal.logistic z

/-- The hidden pre-activation at time step `t`, batch row `b`, hidden unit `h`. -/
def hidden (x : (⟨3, ![32, 8192, 256]⟩ : Shape).Idx → EReal) (w1 : (⟨3, ![32, 256, 128]⟩ : Shape).Idx → EReal)
    (β1 : Fin 32 → Fin 128 → EReal) (t : Fin 32) (b : Fin 8192) (h : Fin 128) : EReal :=
  (∑ s : Fin 256, x (ix3 t b s) * w1 (ix3 t s h)) + β1 t h

/-- The network's output at time step `t` and batch row `b`. -/
def out (x : (⟨3, ![32, 8192, 256]⟩ : Shape).Idx → EReal) (w1 : (⟨3, ![32, 256, 128]⟩ : Shape).Idx → EReal)
    (β1 : Fin 32 → Fin 128 → EReal) (w2 : (⟨3, ![32, 128, 1]⟩ : Shape).Idx → EReal) (β2 : Fin 32 → EReal)
    (t : Fin 32) (b : Fin 8192) : EReal :=
  (∑ h : Fin 128, silu (hidden x w1 β1 t b h) * w2 (ix3 t h (0 : Fin 1))) + β2 t

/-- The output as a [32, 8192] array. -/
def mlp (x : (⟨3, ![32, 8192, 256]⟩ : Shape).Idx → EReal) (w1 : (⟨3, ![32, 256, 128]⟩ : Shape).Idx → EReal)
    (β1 : Fin 32 → Fin 128 → EReal) (w2 : (⟨3, ![32, 128, 1]⟩ : Shape).Idx → EReal) (β2 : Fin 32 → EReal) :
    (⟨2, ![32, 8192]⟩ : Shape).Idx → EReal :=
  fun i => out x w1 β1 w2 β2 ⟨(i 0).val, idx2_lt0 i⟩ ⟨(i 1).val, idx2_lt1 i⟩

/-- The same output as a [32, 1, 8192] array: the layout the kernel writes, one row of 8192 per time step. -/
def mlpRows (x : (⟨3, ![32, 8192, 256]⟩ : Shape).Idx → EReal) (w1 : (⟨3, ![32, 256, 128]⟩ : Shape).Idx → EReal)
    (β1 : Fin 32 → Fin 128 → EReal) (w2 : (⟨3, ![32, 128, 1]⟩ : Shape).Idx → EReal) (β2 : Fin 32 → EReal) :
    (⟨3, ![32, 1, 8192]⟩ : Shape).Idx → EReal :=
  fun i => out x w1 β1 w2 β2 ⟨(i 0).val, (i 0).isLt⟩ ⟨(i 2).val, (i 2).isLt⟩

theorem mlp_ix2 (x : (⟨3, ![32, 8192, 256]⟩ : Shape).Idx → EReal) (w1 : (⟨3, ![32, 256, 128]⟩ : Shape).Idx → EReal)
    (β1 : Fin 32 → Fin 128 → EReal) (w2 : (⟨3, ![32, 128, 1]⟩ : Shape).Idx → EReal) (β2 : Fin 32 → EReal)
    (t : Fin 32) (b : Fin 8192) : mlp x w1 β1 w2 β2 (ix2 t b) = out x w1 β1 w2 β2 t b := rfl

theorem mlpRows_ix3 (x : (⟨3, ![32, 8192, 256]⟩ : Shape).Idx → EReal) (w1 : (⟨3, ![32, 256, 128]⟩ : Shape).Idx → EReal)
    (β1 : Fin 32 → Fin 128 → EReal) (w2 : (⟨3, ![32, 128, 1]⟩ : Shape).Idx → EReal) (β2 : Fin 32 → EReal)
    (t : Fin 32) (u : Fin 1) (b : Fin 8192) : mlpRows x w1 β1 w2 β2 (ix3 t u b) = out x w1 β1 w2 β2 t b := rfl

/-- The word `0x3F800000` is the number one. -/
theorem one_f32 : Ideal.ofBits .f32 0x3F800000#32 = 1 := by
  simp [Ideal.ofBits, Ideal.ieee, -EReal.coe_mul]; norm_num

/-- The logistic function spelt out with that word for its two ones, `1 / (1 + e^(-z))`, is the logistic function. -/
theorem one_div_one_add_exp_neg (z : EReal) :
    Ideal.div (Ideal.ofBits .f32 0x3F800000#32) (Ideal.ofBits .f32 0x3F800000#32 + Ideal.exp (-z)) = Ideal.logistic z := by
  rw [one_f32]; rfl

end Cert.Mlp

end
-- ==== Proof.RefIsMlp.lean ====
/-
  The reference's result, stage by stage, is the two-layer perceptron of its five arguments.

  Read at `(t, b)`, the final reshape reads the [32, 8192, 1] sum at `(t, b, 0)`; that is the second product — the sum over
  the hidden units `h` of the activation at `(t, b, h)` times `W2[t, h, 0]` — plus the second bias broadcast from
  `b2[t, 0]`. The activation is the hidden pre-activation times `1 / (1 + e^(-z))` of it, which is the logistic function;
  the pre-activation is the first product, the sum over the state features `s` of `x[t, b, s] · W1[t, s, h]`, plus
  the first bias broadcast from `b1[t, h]`.
-/
import proofs.«163888_j2259152798443_2_alg».proof.Proof.Gen.ReferenceIdeal.Read
import proofs.«163888_j2259152798443_2_alg».proof.Proof.MlpSpec

noncomputable section

open scoped BigOperators

namespace Cert.ReferenceIdeal.RefValue

open Cert.ReferenceIdeal Cert.ReferenceIdeal.Read Idealize.ShloMosaic Idealize.ShloMosaic.ValueIdx

/-- The hidden pre-activation stage at `(t, b, h)`. -/
theorem hidden_apply (x0 : (⟨S32x8192x256, .f32⟩ : BufTy).Contents (Elt Ideal)) (x1 : (⟨S32x256x128, .f32⟩ : BufTy).Contents (Elt Ideal))
    (x2 : (⟨S32x128, .f32⟩ : BufTy).Contents (Elt Ideal)) (t : Fin 32) (b : Fin 8192) (h : Fin 128) :
    val_main_v3 (F := Ideal) x0 x1 x2 (ix3 t b h) = Cert.Mlp.hidden x0 x1 (fun t h => x2 (ix2 t h)) t b h := by
  have el : ∀ s : Fin 256, lidx_main_v0 (ix3 t b h) s = ix3 t b s := fun s =>
    funext fun a => Fin.ext (by match a with | ⟨0, _⟩ => rfl | ⟨1, _⟩ => rfl | ⟨2, _⟩ => rfl)
  have er : ∀ s : Fin 256, ridx_main_v0 (ix3 t b h) s = ix3 t s h := fun s =>
    funext fun a => Fin.ext (by match a with | ⟨0, _⟩ => rfl | ⟨1, _⟩ => rfl | ⟨2, _⟩ => rfl)
  have e2 : idx_main_v1 (idx_main_v2 (ix3 t b h)) = ix2 t h :=
    funext fun a => Fin.ext (by match a with | ⟨0, _⟩ => rfl | ⟨1, _⟩ => rfl)
  rw [val_main_v3_apply, val_main_v0_apply, val_main_v2_apply, val_main_v1_apply, e2]
  simp only [el, er]
  rfl

/-- The activation stage at `(t, b, h)`: SiLU of the pre-activation. -/
theorem act_apply (x0 : (⟨S32x8192x256, .f32⟩ : BufTy).Contents (Elt Ideal)) (x1 : (⟨S32x256x128, .f32⟩ : BufTy).Contents (Elt Ideal))
    (x2 : (⟨S32x128, .f32⟩ : BufTy).Contents (Elt Ideal)) (t : Fin 32) (b : Fin 8192) (h : Fin 128) :
    val_main_v4 (F := Ideal) x0 x1 x2 (ix3 t b h) = Cert.Mlp.silu (Cert.Mlp.hidden x0 x1 (fun t h => x2 (ix2 t h)) t b h) := by
  rw [val_main_v4_apply, val_main_call0_v5_apply, val_main_call0_v4_apply, val_main_call0_cst_0_apply,
    val_main_call0_v3_apply, val_main_call0_v2_apply, val_main_call0_cst_apply, val_main_call0_v1_apply,
    val_main_call0_v0_apply, hidden_apply]
  exact congrArg (Cert.Mlp.hidden x0 x1 (fun t h => x2 (ix2 t h)) t b h * ·) (Cert.Mlp.one_div_one_add_exp_neg _)

/-- THE REFERENCE'S RESULT is the perceptron of its arguments. -/
theorem result_eq (x0 : (⟨S32x8192x256, .f32⟩ : BufTy).Contents (Elt Ideal)) (x1 : (⟨S32x256x128, .f32⟩ : BufTy).Contents (Elt Ideal))
    (x2 : (⟨S32x128, .f32⟩ : BufTy).Contents (Elt Ideal)) (x3 : (⟨S32x128x1, .f32⟩ : BufTy).Contents (Elt Ideal))
    (x4 : (⟨S32x1, .f32⟩ : BufTy).Contents (Elt Ideal)) :
    val_main_v9 (F := Ideal) x0 x1 x2 x3 x4
      = Cert.Mlp.mlp x0 x1 (fun t h => x2 (ix2 t h)) x3 (fun t => x4 (ix2 t (0 : Fin 1))) := by
  funext i
  obtain ⟨t, b, rfl⟩ : ∃ (t : Fin 32) (b : Fin 8192), i = ix2 t b := ⟨i 0, i 1, eq_ix2 i⟩
  have e9 : idx_main_v9 (ix2 t b) = ix3 t b (0 : Fin 1) :=
    funext fun a => Fin.ext (by
      have ht : t.val < 32 := t.isLt
      have hb : b.val < 8192 := b.isLt
      match a with
      | ⟨0, _⟩ => show (t.val * 8192 + b.val) / 8192 = t.val; omega
      | ⟨1, _⟩ => show (t.val * 8192 + b.val) / 1 % 8192 = b.val; omega
      | ⟨2, _⟩ => rfl)
  have el : ∀ h : Fin 128, lidx_main_v5 (ix3 t b (0 : Fin 1)) h = ix3 t b h := fun h =>
    funext fun a => Fin.ext (by match a with | ⟨0, _⟩ => rfl | ⟨1, _⟩ => rfl | ⟨2, _⟩ => rfl)
  have er : ∀ h : Fin 128, ridx_main_v5 (ix3 t b (0 : Fin 1)) h = ix3 t h (0 : Fin 1) := fun h =>
    funext fun a => Fin.ext (by match a with | ⟨0, _⟩ => rfl | ⟨1, _⟩ => rfl | ⟨2, _⟩ => rfl)
  have e7 : idx_main_v6 (idx_main_v7 (ix3 t b (0 : Fin 1))) = ix2 t (0 : Fin 1) :=
    funext fun a => Fin.ext (by match a with | ⟨0, _⟩ => rfl | ⟨1, _⟩ => rfl)
  rw [val_main_v9_apply, e9, val_main_v8_apply, val_main_v5_apply, val_main_v7_apply, val_main_v6_apply, e7,
    Cert.Mlp.mlp_ix2]
  simp only [el, er, act_apply]
  rfl

end Cert.ReferenceIdeal.RefValue

end
-- ==== Proof.LibPlainDot.lean ====
/-
  A plain matrix product's contraction sum, read at an index.

  For the dimension numbers of an `[M, K] × [K, N] → [M, N]` product — the left operand contracted on its second
  axis, the right on its first, no batch axis — the contraction index has one coordinate, ranging over `Fin K`; at the
  result index `(r, c)` and contraction position `k` the left operand is read at `(r, k)` and the right at `(k, c)`.
  So a sum over the contraction index of any function of the two operand indices is the sum over `k : Fin K` of that
  function at `(r, k)` and `(k, c)`. Both a kernel's matrix unit product into a zero accumulator and the host's
  `dot_general` are such sums over the extended reals (of the products of the operands' entries), so this is the one
  re-indexing either needs.
-/
import Idealize.ShloMosaic.PureOps.Dims
import Idealize.ShloMosaic.Lib.ValueIdx

namespace Idealize.ShloMosaic.PlainDot

open Idealize.ShloMosaic Idealize.ShloMosaic.ValueIdx

/-- The left operand's index at result index `(r, c)` and contraction position `k` is `(r, k)`, the right operand's
    `(k, c)`, for any record with the plain product's dimension numbers; `e` is the bijection between the contraction
    index and `Fin K`. -/
theorem plain_idx {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K) (r : Fin M) (c : Fin N) (k : Fin K) :
    d.lhsIdx (ix2 r c) ((contrEquiv1 d K hr hs).symm k) = ix2 r k
      ∧ d.rhsIdx (ix2 r c) ((contrEquiv1 d K hr hs).symm k) = ix2 k c := by
  constructor
  · funext a
    refine Fin.ext ?_
    match a with
    | ⟨0, _⟩ =>
      show (d.lhsIdx (ix2 r c) ((contrEquiv1 d K hr hs).symm k) 0).val = r.val
      unfold DotDims.lhsIdx
      rw [dif_neg (by rw [h5]; exact List.not_mem_nil), dif_pos (by rw [h3]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 0 _ (by decide) (by simp [h5, h3])
    | ⟨1, _⟩ =>
      show (d.lhsIdx (ix2 r c) ((contrEquiv1 d K hr hs).symm k) 1).val = k.val
      rw [d.lhsIdx_val_of_single h1]
      exact contrEquiv1_symm_val d K hr hs k
  · funext a
    refine Fin.ext ?_
    match a with
    | ⟨0, _⟩ =>
      show (d.rhsIdx (ix2 r c) ((contrEquiv1 d K hr hs).symm k) 0).val = k.val
      rw [d.rhsIdx_val_of_single h2]
      exact contrEquiv1_symm_val d K hr hs k
    | ⟨1, _⟩ =>
      show (d.rhsIdx (ix2 r c) ((contrEquiv1 d K hr hs).symm k) 1).val = c.val
      unfold DotDims.rhsIdx
      rw [dif_neg (by rw [h6]; exact List.not_mem_nil), dif_pos (by rw [h4]; exact List.mem_singleton.mpr rfl)]
      simp only [Fin.val_cast]
      have key : ∀ (p q : Nat) (hp : p < 2) (hq : q < 2), p = q →
          ((ix2 r c : (⟨2, ![M, N]⟩ : Shape).Idx) ⟨p, hp⟩).val = ((ix2 r c : (⟨2, ![M, N]⟩ : Shape).Idx) ⟨q, hq⟩).val :=
        fun p q hp hq h => by subst h; rfl
      exact key _ 1 _ (by decide) (by simp [h5, h3, h4])

/-- THE CONTRACTION SUM OF A PLAIN PRODUCT at `(r, c)`: the sum over `k : Fin K` at the operand indices `(r, k)` and
    `(k, c)`, in any commutative additive monoid. -/
theorem plain_sum {β : Type*} [AddCommMonoid β] {M K N : Nat} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (hr : d.contr.rank = 1) (hs : d.contr.size ⟨0, by omega⟩ = K)
    (f : (⟨2, ![M, K]⟩ : Shape).Idx → (⟨2, ![K, N]⟩ : Shape).Idx → β) (r : Fin M) (c : Fin N) :
    ∑ q : d.contr.Idx, f (d.lhsIdx (ix2 r c) q) (d.rhsIdx (ix2 r c) q) = ∑ k : Fin K, f (ix2 r k) (ix2 k c) := by
  rw [← Equiv.sum_comp (contrEquiv1 d K hr hs).symm]
  refine Finset.sum_congr rfl fun k _ => ?_
  obtain ⟨hl, hr'⟩ := plain_idx d h1 h2 h3 h4 h5 h6 hr hs r c k
  rw [hl, hr']

end Idealize.ShloMosaic.PlainDot
-- ==== Proof.KernelPayload.lean ====
/-
  The kernel body's stored value, read at one element of its [1, 1, 2048] block.

  The body casts its five loaded blocks to matrices, multiplies the [2048, 256] block of states by the [256, 128] block
  of first-layer weights, adds the first bias row to every row, applies SiLU, multiplies by the [128, 1] block of
  second-layer weights, adds the second bias, and lays the resulting column out as a row. The changes of float format on
  the way into the two products are the identity on the extended reals, and a product into a zero accumulator is the plain
  sum of products. So the element at position `q` of the stored row is
  `(∑ h, silu ((∑ s, x0[0,q,s] · x1[0,s,h]) + x2[0,0,h]) · x3[0,h,0]) + x4[0,0,0]`.
-/
import proofs.«163888_j2259152798443_2_alg».proof.Proof.Gen.KernelIdeal.Skeleton
import proofs.«163888_j2259152798443_2_alg».proof.Proof.MlpSpec
import proofs.«163888_j2259152798443_2_alg».proof.Proof.LibPlainDot
import Idealize.ShloMosaic.Lib.ValueLayout
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- A `[a, 1]` column cast to an `[a]` vector reads, at `i`, the column's entry `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- The first product at `(q, h)`: the sum over the 256 state features. -/
theorem dot1_apply (a : FVec Ideal S2048x256 .bf16) (b : FVec Ideal S256x128 .bf16) (q : Fin 2048) (h : Fin 128) :
    matmul dot_S2048x256_S256x128_S2048x128_1_0_0_1_n_n none a b (constant (F := Ideal) S2048x128 .f32 0x00000000#32) (ix2 q h)
      = ∑ s : Fin 256, a (ix2 q s) * b (ix2 s h) :=
  (Ideal.matmul_constant_zero_apply _ none a b (ix2 q h)).trans
    (PlainDot.plain_sum dot_S2048x256_S256x128_S2048x128_1_0_0_1_n_n rfl rfl rfl rfl rfl rfl rfl rfl
      (fun i j => a i * b j) q h)

/-- The second product at `(q, 0)`: the sum over the 128 hidden units. -/
theorem dot2_apply (a : FVec Ideal S2048x128 .bf16) (b : FVec Ideal S128x1 .bf16) (q : Fin 2048) (o : Fin 1) :
    matmul dot_S2048x128_S128x1_S2048x1_1_0_0_1_n_n none a b (constant (F := Ideal) S2048x1 .f32 0x00000000#32) (ix2 q o)
      = ∑ h : Fin 128, a (ix2 q h) * b (ix2 h o) :=
  (Ideal.matmul_constant_zero_apply _ none a b (ix2 q o)).trans
    (PlainDot.plain_sum dot_S2048x128_S128x1_S2048x1_1_0_0_1_n_n rfl rfl rfl rfl rfl rfl rfl rfl
      (fun i j => a i * b j) q o)

/-- The hidden pre-activation at row `q` of the block and hidden unit `h`: the first product plus the first bias row. -/
theorem hid_apply (x0 : Vec Ideal S1x2048x256 .f32) (x1 : Vec Ideal S1x256x128 .f32) (x2 : Vec Ideal S1x1x128 .f32)
    (hc0 : S1x2048x256.ShapeCasts S2048x256) (hc1 : S1x256x128.ShapeCasts S256x128) (hc2 : S1x1x128.ShapeCasts S1x128)
    (hb : S1x128.Broadcasts S2048x128) (hlt : FTy.bits .bf16 < FTy.bits .f32) (q : Fin 2048) (h : Fin 128) :
    addf (matmul dot_S2048x256_S256x128_S2048x128_1_0_0_1_n_n none
        (truncf .bf16 (shapeCast S2048x256 x0 hc0) hlt) (truncf .bf16 (shapeCast S256x128 x1 hc1) hlt)
        (constant (F := Ideal) S2048x128 .f32 0x00000000#32))
      (broadcastTo S2048x128 (shapeCast S1x128 x2 hc2) hb) (ix2 q h)
    = (∑ s : Fin 256, x0 (ix3 (0 : Fin 1) q s) * x1 (ix3 (0 : Fin 1) s h)) + x2 (ix3 (0 : Fin 1) (0 : Fin 1) h) := by
  rw [addf_apply, dot1_apply, broadcastTo_1b_ab_apply, shapeCast_1ab_ab_apply]
  refine congrArg (· + _) (Finset.sum_congr rfl fun s _ => ?_)
  rw [truncf_apply, truncf_apply, shapeCast_1ab_ab_apply, shapeCast_1ab_ab_apply]

/-- A value times the logistic function of it, element by element, is SiLU of the element. -/
theorem silu_apply {s : Shape} (z : FVec Ideal s .f32) (i : s.Idx) : mulf z (logistic z) i = Cert.Mlp.silu (z i) := rfl

/-- THE STORED VALUE at position `q` of the block's one row. -/
theorem pay_apply (x0 : Vec Ideal S1x2048x256 .f32) (x1 : Vec Ideal S1x256x128 .f32) (x2 : Vec Ideal S1x1x128 .f32)
    (x3 : Vec Ideal S1x128x1 .f32) (x4 : Vec Ideal S1x1x1 .f32) (u v : Fin 1) (q : Fin 2048) :
    k0_pay1 x0 x1 x2 x3 x4 (ix3 u v q)
      = (∑ h : Fin 128, Cert.Mlp.silu ((∑ s : Fin 256, x0 (ix3 (0 : Fin 1) q s) * x1 (ix3 (0 : Fin 1) s h))
            + x2 (ix3 (0 : Fin 1) (0 : Fin 1) h)) * x3 (ix3 (0 : Fin 1) h (0 : Fin 1)))
          + x4 (ix3 (0 : Fin 1) (0 : Fin 1) (0 : Fin 1)) := by
  unfold k0_pay1
  rw [shapeCast_ab_1ab_apply, shapeCast_a_1a_apply, shapeCast_a1_a_apply]
  rw [addf_apply, dot2_apply, broadcastTo_1b_ab_apply, shapeCast_1ab_ab_apply]
  refine congrArg (· + _) (Finset.sum_congr rfl fun h _ => ?_)
  rw [truncf_apply, truncf_apply, shapeCast_1ab_ab_apply, silu_apply, hid_apply]

/-- So when the five blocks are the rows `T`, `R` of five arrays — the states' row `R` of time step `T`, that time step's
    weights and its two biases — the stored value is the perceptron's output at `(T, R)`. -/
theorem pay_eq_out (x0 : Vec Ideal S1x2048x256 .f32) (x1 : Vec Ideal S1x256x128 .f32) (x2 : Vec Ideal S1x1x128 .f32)
    (x3 : Vec Ideal S1x128x1 .f32) (x4 : Vec Ideal S1x1x1 .f32)
    (X : S32x8192x256.Idx → EReal) (W1 : S32x256x128.Idx → EReal) (β1 : Fin 32 → Fin 128 → EReal)
    (W2 : S32x128x1.Idx → EReal) (β2 : Fin 32 → EReal) (u v : Fin 1) (q : Fin 2048) (T : Fin 32) (R : Fin 8192)
    (h0 : ∀ s : Fin 256, x0 (ix3 (0 : Fin 1) q s) = X (ix3 T R s))
    (h1 : ∀ (s : Fin 256) (h : Fin 128), x1 (ix3 (0 : Fin 1) s h) = W1 (ix3 T s h))
    (h2 : ∀ h : Fin 128, x2 (ix3 (0 : Fin 1) (0 : Fin 1) h) = β1 T h)
    (h3 : ∀ h : Fin 128, x3 (ix3 (0 : Fin 1) h (0 : Fin 1)) = W2 (ix3 T h (0 : Fin 1)))
    (h4 : x4 (ix3 (0 : Fin 1) (0 : Fin 1) (0 : Fin 1)) = β2 T) :
    k0_pay1 x0 x1 x2 x3 x4 (ix3 u v q) = Cert.Mlp.out X W1 β1 W2 β2 T R := by
  rw [pay_apply]
  simp only [h0, h1, h2, h3, h4]
  rfl

end Cert.KernelIdeal.Body

end
-- ==== Proof.KernelBlocks.lean ====
/-
  The array the kernel's grid leaves behind: the perceptron's output, one row of 8192 per time step.

  Grid point `(T, B)` stages row block `B` (2048 rows) of time step `T`'s states, that time step's two weight matrices and
  its two biases, and writes back columns `2048·B … 2048·B + 2047` of row `T` of the [32, 1, 8192] result. So what a point
  writes back is its block of one whole-array function of the arrays the launch finds; the 128 blocks tile the result;
  hence the result array ends holding that function.
-/
import proofs.«163888_j2259152798443_2_alg».proof.Proof.Gen.KernelIdeal.Frame
import proofs.«163888_j2259152798443_2_alg».proof.Proof.KernelPayload
import Idealize.ShloMosaic.Lib.Pipeline.Value

noncomputable section

open scoped BigOperators

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero3 : (![0, 0, 0] : Fin 3 → Nat) = fun _ => 0 := funext fun a => by fin_cases a <;> rfl

/-- The result rows as a function of the five arrays the launch finds: the states, the two weight arrays, and the two
    biases in their unit-middle-axis layout. -/
abbrev rowsOf (c : Dev nD) : S32x1x8192.Idx → EReal :=
  Cert.Mlp.mlpRows (V m c main_arg0) (V m c main_arg1) (fun t h => V m c main_v0 (ix3 t (0 : Fin 1) h))
    (V m c main_arg3) (fun t => V m c main_v1 (ix3 t (0 : Fin 1) (0 : Fin 1)))

/-- The index maps over the grid: every input window sits at the output's time step, the states' window at the output's
    column block, and all other block coordinates are zero. -/
theorem idx_facts : ∀ t : Fin cfg0.N,
    win0_0.index t (0 : Fin 3) = win0_5.index t (0 : Fin 3) ∧ win0_0.index t (1 : Fin 3) = win0_5.index t (2 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 3) = win0_5.index t (0 : Fin 3) ∧ win0_4.index t (1 : Fin 3) = 0 ∧ win0_4.index t (2 : Fin 3) = 0
    ∧ win0_5.index t (0 : Fin 3) < 32 ∧ win0_5.index t (1 : Fin 3) = 0 ∧ win0_5.index t (2 : Fin 3) < 4 :=
  (by decide +kernel : ∀ t : Fin grid0.N, _)

/-- Every (time step, column block) pair is some grid point's. -/
theorem idx_onto : ∀ (T : Fin 32) (B : Fin 4), ∃ t : Fin cfg0.N, win0_5.index t = ![T.val, 0, B.val] :=
  (by decide +kernel : ∀ (T : Fin 32) (B : Fin 4), ∃ t : Fin grid0.N, win0_5.index t = ![T.val, 0, B.val])

/-- WHAT POINT `t` WRITES BACK is its block of the result rows. -/
theorem flushed_eq (c : Dev nD) (t : Fin cfg0.N) :
    (dats m 0 c).flushed 5 t = ((cfg0.win 5).blk t).view.read (Elt Ideal) (rowsOf m c) := by
  show (cfg0.win 5).cut (grid0.coords t) ((dats m 0 c).after 5 t) = _
  rw [after0_5]
  unfold out0_5
  rw [View.canon_unit_zero zero3]
  simp only [View.ld_unit_zero (S := S1x2048x256) zero3, View.ld_unit_zero (S := S1x256x128) zero3,
    View.ld_unit_zero (S := S1x1x128) zero3, View.ld_unit_zero (S := S1x128x1) zero3, View.ld_unit_zero (S := S1x1x1) zero3]
  obtain ⟨a00, a01, a02, a10, a11, a12, a20, a21, a22, a30, a31, a32, a40, a41, a42, o0, o1, o2⟩ := idx_facts t
  funext j
  obtain ⟨u, v, q, rfl⟩ : ∃ (u v : Fin 1) (q : Fin 2048), j = ix3 u v q := ⟨j 0, j 1, j 2, eq_ix3 j⟩
  show k0_pay1 (iblk m c 0 t) (iblk m c 1 t) (iblk m c 2 t) (iblk m c 3 t) (iblk m c 4 t) (ix3 u v q)
    = rowsOf m c (((cfg0.win 5).blk t).view.emb (ix3 u v q))
  have hu : u.val = 0 := by omega
  have hq : q.val < 2048 := q.isLt
  have hT : win0_5.index t (0 : Fin 3) * 1 + 1 * u.val < 32 := by omega
  have hR : win0_5.index t (2 : Fin 3) * 2048 + 1 * q.val < 8192 := by omega
  have h0 : ∀ s : Fin 256, iblk m c 0 t (ix3 (0 : Fin 1) q s)
      = V m c main_arg0 (ix3 (⟨_, hT⟩ : Fin 32) (⟨_, hR⟩ : Fin 8192) s) := fun s => by
    show V m c main_arg0 (((cfg0.win 0).blk t).view.emb (ix3 (0 : Fin 1) q s)) = _
    refine congrArg (V m c main_arg0) (funext fun a => Fin.ext ?_)
    match a with
    | ⟨0, _⟩ => show win0_0.index t (0 : Fin 3) * 1 + 1 * 0 = win0_5.index t (0 : Fin 3) * 1 + 1 * u.val; omega
    | ⟨1, _⟩ => show win0_0.index t (1 : Fin 3) * 2048 + 1 * q.val = win0_5.index t (2 : Fin 3) * 2048 + 1 * q.val; omega
    | ⟨2, _⟩ => show win0_0.index t (2 : Fin 3) * 256 + 1 * s.val = s.val; omega
  have h1 : ∀ (s : Fin 256) (h : Fin 128), iblk m c 1 t (ix3 (0 : Fin 1) s h)
      = V m c main_arg1 (ix3 (⟨_, hT⟩ : Fin 32) s h) := fun s h => by
    show V m c main_arg1 (((cfg0.win 1).blk t).view.emb (ix3 (0 : Fin 1) s h)) = _
    refine congrArg (V m c main_arg1) (funext fun a => Fin.ext ?_)
    match a with
    | ⟨0, _⟩ => show win0_1.index t (0 : Fin 3) * 1 + 1 * 0 = win0_5.index t (0 : Fin 3) * 1 + 1 * u.val; omega
    | ⟨1, _⟩ => show win0_1.index t (1 : Fin 3) * 256 + 1 * s.val = s.val; omega
    | ⟨2, _⟩ => show win0_1.index t (2 : Fin 3) * 128 + 1 * h.val = h.val; omega
  have h2 : ∀ h : Fin 128, iblk m c 2 t (ix3 (0 : Fin 1) (0 : Fin 1) h)
      = V m c main_v0 (ix3 (⟨_, hT⟩ : Fin 32) (0 : Fin 1) h) := fun h => by
    show V m c main_v0 (((cfg0.win 2).blk t).view.emb (ix3 (0 : Fin 1) (0 : Fin 1) h)) = _
    refine congrArg (V m c main_v0) (funext fun a => Fin.ext ?_)
    match a with
    | ⟨0, _⟩ => show win0_2.index t (0 : Fin 3) * 1 + 1 * 0 = win0_5.index t (0 : Fin 3) * 1 + 1 * u.val; omega
    | ⟨1, _⟩ => show win0_2.index t (1 : Fin 3) * 1 + 1 * 0 = 0; omega
    | ⟨2, _⟩ => show win0_2.index t (2 : Fin 3) * 128 + 1 * h.val = h.val; omega
  have h3 : ∀ h : Fin 128, iblk m c 3 t (ix3 (0 : Fin 1) h (0 : Fin 1))
      = V m c main_arg3 (ix3 (⟨_, hT⟩ : Fin 32) h (0 : Fin 1)) := fun h => by
    show V m c main_arg3 (((cfg0.win 3).blk t).view.emb (ix3 (0 : Fin 1) h (0 : Fin 1))) = _
    refine congrArg (V m c main_arg3) (funext fun a => Fin.ext ?_)
    match a with
    | ⟨0, _⟩ => show win0_3.index t (0 : Fin 3) * 1 + 1 * 0 = win0_5.index t (0 : Fin 3) * 1 + 1 * u.val; omega
    | ⟨1, _⟩ => show win0_3.index t (1 : Fin 3) * 128 + 1 * h.val = h.val; omega
    | ⟨2, _⟩ => show win0_3.index t (2 : Fin 3) * 1 + 1 * 0 = 0; omega
  have h4 : iblk m c 4 t (ix3 (0 : Fin 1) (0 : Fin 1) (0 : Fin 1))
      = V m c main_v1 (ix3 (⟨_, hT⟩ : Fin 32) (0 : Fin 1) (0 : Fin 1)) := by
    show V m c main_v1 (((cfg0.win 4).blk t).view.emb (ix3 (0 : Fin 1) (0 : Fin 1) (0 : Fin 1))) = _
    refine congrArg (V m c main_v1) (funext fun a => Fin.ext ?_)
    match a with
    | ⟨0, _⟩ => show win0_4.index t (0 : Fin 3) * 1 + 1 * 0 = win0_5.index t (0 : Fin 3) * 1 + 1 * u.val; omega
    | ⟨1, _⟩ => show win0_4.index t (1 : Fin 3) * 1 + 1 * 0 = 0; omega
    | ⟨2, _⟩ => show win0_4.index t (2 : Fin 3) * 1 + 1 * 0 = 0; omega
  refine (Body.pay_eq_out (iblk m c 0 t) (iblk m c 1 t) (iblk m c 2 t) (iblk m c 3 t) (iblk m c 4 t)
    (V m c main_arg0) (V m c main_arg1) (fun t h => V m c main_v0 (ix3 t (0 : Fin 1) h)) (V m c main_arg3)
    (fun t => V m c main_v1 (ix3 t (0 : Fin 1) (0 : Fin 1))) u v q ⟨_, hT⟩ ⟨_, hR⟩ h0 h1 h2 h3 h4).trans ?_
  rfl

/-- An index of the result is in point `t`'s block iff each coordinate is in the block's range on its axis. -/
theorem mem_blk (t : Fin cfg0.N) (i : S32x1x8192.Idx) :
    i ∈ ((cfg0.win 5).blk t).view.set ↔ ∀ a : Fin 3, win0_5.index t a * S1x1x2048.size a ≤ (i a).val
      ∧ (i a).val < win0_5.index t a * S1x1x2048.size a + S1x1x2048.size a := by
  show i ∈ ((View.whole main_v2).slice (win0_5.rect t)).set ↔ _
  rw [View.set_slice_whole, Rect.mem_set_unit]
  exact Iff.rfl

/-- The 128 blocks tile the result: the point that covers `(T, 0, R)` is the one at time step `T`, column block `R / 2048`. -/
theorem cover (i : S32x1x8192.Idx) :
    ∃ t : Fin cfg0.N, (cfg0.win 5).flush t = true ∧ i ∈ ((cfg0.win 5).blk t).view.set := by
  have hi0 : (i 0).val < 32 := (i 0).isLt
  have hi1 : (i 1).val < 1 := (i 1).isLt
  have hi2 : (i 2).val < 8192 := (i 2).isLt
  obtain ⟨t, ht⟩ := idx_onto ⟨(i 0).val, hi0⟩ ⟨(i 2).val / 2048, by omega⟩
  have q0 : win0_5.index t (0 : Fin 3) = (i 0).val := congrFun ht 0
  have q1 : win0_5.index t (1 : Fin 3) = 0 := congrFun ht 1
  have q2 : win0_5.index t (2 : Fin 3) = (i 2).val / 2048 := congrFun ht 2
  refine ⟨t, flush0_5 t, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1 ≤ (i 1).val ∧ (i 1).val < win0_5.index t (1 : Fin 3) * 1 + 1; omega
  | ⟨2, _⟩ => show win0_5.index t (2 : Fin 3) * 2048 ≤ (i 2).val ∧ (i 2).val < win0_5.index t (2 : Fin 3) * 2048 + 2048; omega

/-- THE RESULT ROWS after the grid: the perceptron's output of the arrays the launch finds. -/
theorem rows_final (c : Dev nD) : (dats m 0 c).arrAt 5 cfg0.N = rowsOf m c :=
  (dats m 0 c).arrAt_eq_of_cover 5 (rowsOf m c) (fun t _ => flushed_eq m c t) cover

end Cert.KernelIdeal.Blocks

end
-- ==== Proof.KernelValue.lean ====
/-
  The kernel program's result, read off its run: the two-layer perceptron of the five argument arrays.

  Before the launch the program gives each bias a unit middle axis (a reshape: the entry `(t, 0, h)` of the new array is the
  entry `(t, h)` of the argument); the launch leaves the [32, 1, 8192] rows; after it the program drops the unit axis again
  (the entry `(t, b)` of the result is the entry `(t, 0, b)` of the rows). The states and the weights reach the launch as
  they were given.
-/
import proofs.«163888_j2259152798443_2_alg».proof.Proof.KernelBlocks
import Idealize.ShloMosaic.Lib.StableHlo.Run

noncomputable section

open scoped BigOperators

namespace Cert.KernelIdeal.Result

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The first bias as the launch finds it: the argument with a unit middle axis. -/
theorem V_main_v0 (c : Dev nD) : (V m c main_v0 : S32x1x128.Idx → EReal)
    = shapeCast S32x1x128 (m ((c : Thread nD τ).loc main_arg2) : S32x128.Idx → EReal) shapeCasts_S32x128_S32x1x128 := by
  show StableHlo.after hostOps0 (fun b => m (c, b)) (Proc.devRef .tc main_v0) = _
  after_results
  rfl

/-- The second bias as the launch finds it: the argument with a unit middle axis. -/
theorem V_main_v1 (c : Dev nD) : (V m c main_v1 : S32x1x1.Idx → EReal)
    = shapeCast S32x1x1 (m ((c : Thread nD τ).loc main_arg4) : S32x1.Idx → EReal) shapeCasts_S32x1_S32x1x1 := by
  show StableHlo.after hostOps0 (fun b => m (c, b)) (Proc.devRef .tc main_v1) = _
  after_results
  rfl

/-- Its entry `(t, 0, h)` is the argument's entry `(t, h)`. -/
theorem bias1_apply (c : Dev nD) (t : Fin 32) (h : Fin 128) :
    (V m c main_v0 : S32x1x128.Idx → EReal) (ix3 t (0 : Fin 1) h)
      = (m ((c : Thread nD τ).loc main_arg2) : S32x128.Idx → EReal) (ix2 t h) := by
  rw [V_main_v0]
  exact shapeCast_apply _ _ _ _ (by
    show (S32x128.rowMajor (ix2 t h)).val = (S32x1x128.rowMajor (ix3 t (0 : Fin 1) h)).val
    rw [Shape.rowMajor_val_two, Shape.rowMajor_val_three]
    show t.val * 128 + h.val = (t.val * 1 + 0) * 128 + h.val
    omega)

/-- Its entry `(t, 0, 0)` is the argument's entry `(t, 0)`. -/
theorem bias2_apply (c : Dev nD) (t : Fin 32) :
    (V m c main_v1 : S32x1x1.Idx → EReal) (ix3 t (0 : Fin 1) (0 : Fin 1))
      = (m ((c : Thread nD τ).loc main_arg4) : S32x1.Idx → EReal) (ix2 t (0 : Fin 1)) := by
  rw [V_main_v1]
  exact shapeCast_apply _ _ _ _ (by
    show (S32x1.rowMajor (ix2 t (0 : Fin 1))).val = (S32x1x1.rowMajor (ix3 t (0 : Fin 1) (0 : Fin 1))).val
    rw [Shape.rowMajor_val_two, Shape.rowMajor_val_three]
    show t.val * 1 + 0 = (t.val * 1 + 0) * 1 + 0
    omega)

/-- The result buffer after the program's last line: the rows the grid left, with the unit axis dropped. -/
theorem tail_eq (c : Dev nD) :
    (Pipeline.afterTail₀ cfgs (dats m) 0 (V0 m) [hostOps1] c main_v3 : S32x8192.Idx → EReal)
      = shapeCast S32x8192 ((dats m 0 c).arrAt 5 cfg0.N : S32x1x8192.Idx → EReal) shapeCasts_S32x1x8192_S32x8192 := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = (dats m 0 c).arrAt 5 cfg0.N :=
    Pipeline.withArrays_arr spec0 launch0.win.arr_inj c _ _ 5
  rw [hw]
  rfl

/-- THE RESULT of the kernel program: the perceptron of the five argument arrays. -/
theorem result_eq (c : Dev nD) :
    (Pipeline.afterTail₀ cfgs (dats m) 0 (V0 m) [hostOps1] c main_v3 : S32x8192.Idx → EReal)
      = Cert.Mlp.mlp (m ((c : Thread nD τ).loc main_arg0)) (m ((c : Thread nD τ).loc main_arg1))
          (fun t h => (m ((c : Thread nD τ).loc main_arg2) : S32x128.Idx → EReal) (ix2 t h))
          (m ((c : Thread nD τ).loc main_arg3))
          (fun t => (m ((c : Thread nD τ).loc main_arg4) : S32x1.Idx → EReal) (ix2 t (0 : Fin 1))) := by
  rw [tail_eq, Blocks.rows_final]
  funext i
  obtain ⟨t, b, rfl⟩ : ∃ (t : Fin 32) (b : Fin 8192), i = ix2 t b := ⟨i 0, i 1, eq_ix2 i⟩
  refine (shapeCast_apply _ _ (ix2 t b) (ix3 t (0 : Fin 1) b) (by
    show (S32x1x8192.rowMajor (ix3 t (0 : Fin 1) b)).val = (S32x8192.rowMajor (ix2 t b)).val
    rw [Shape.rowMajor_val_three, Shape.rowMajor_val_two]
    show (t.val * 1 + 0) * 8192 + b.val = t.val * 8192 + b.val
    omega)).trans ?_
  rw [Cert.Mlp.mlp_ix2]
  show Cert.Mlp.out (V m c main_arg0) (V m c main_arg1) (fun t h => (V m c main_v0 : S32x1x128.Idx → EReal) (ix3 t (0 : Fin 1) h))
    (V m c main_arg3) (fun t => (V m c main_v1 : S32x1x1.Idx → EReal) (ix3 t (0 : Fin 1) (0 : Fin 1))) t b = _
  have e1 : (fun (t : Fin 32) (h : Fin 128) => (V m c main_v0 : S32x1x128.Idx → EReal) (ix3 t (0 : Fin 1) h))
      = fun t h => (m ((c : Thread nD τ).loc main_arg2) : S32x128.Idx → EReal) (ix2 t h) :=
    funext fun t => funext fun h => bias1_apply m c t h
  have e2 : (fun (t : Fin 32) => (V m c main_v1 : S32x1x1.Idx → EReal) (ix3 t (0 : Fin 1) (0 : Fin 1)))
      = fun t => (m ((c : Thread nD τ).loc main_arg4) : S32x1.Idx → EReal) (ix2 t (0 : Fin 1)) :=
    funext fun t => bias2_apply m c t
  rw [V_main_arg0, V_main_arg1, V_main_arg3, e1, e2]

/-- THE RUN of the kernel program, read: every execution ends with the result at the perceptron of the arguments and the
    arguments as they were. -/
theorem run : θ_run defs (onTc (τ := τ) (main (F := Ideal))) ⟨m, fun _ => 0, ρ⟩ fun r => ∀ c : Dev nD,
      r.2.mem ((c.tc : Thread nD τ).loc main_v3)
        = Cert.Mlp.mlp (m ((c : Thread nD τ).loc main_arg0)) (m ((c : Thread nD τ).loc main_arg1))
            (fun t h => (m ((c : Thread nD τ).loc main_arg2) : S32x128.Idx → EReal) (ix2 t h))
            (m ((c : Thread nD τ).loc main_arg3))
            (fun t => (m ((c : Thread nD τ).loc main_arg4) : S32x1.Idx → EReal) (ix2 t (0 : Fin 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c =>
      ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.KernelIdeal.Result

end
-- ==== Proof.lean ====
/-
  A per-time-step two-layer perceptron, computed by a tiled kernel and by two einsums: the same function on the extended reals.

  For 32 time steps, 8192 batch rows, 256 state features and 128 hidden units, both programs compute
  `out[t, b] = (∑ h, silu ((∑ s, x[t,b,s] · W1[t,s,h]) + b1[t,h]) · W2[t,h,0]) + b2[t,0]`, with `silu z = z · σ(z)`.
  The kernel walks a 32 × 4 grid, one time step and one block of 2048 rows at a point; it rounds the operands of its two
  matrix products to a shorter format, which is the identity on the extended reals, and it spells the logistic function
  as one operation where the reference spells `1 / (1 + e^(-z))`: one function. Both programs add and multiply the same
  terms in the same order, so the equation needs no law of arithmetic and holds at every input, finite or not; the
  precondition is never opened.

  The kernel's rounding is part of the printed program itself, so the idealization rewrote nothing and the statement that
  the idealized kernel is the kernel's sanctioned idealization is empty.
-/
import proofs.«163888_j2259152798443_2_alg».proof.Defs
import proofs.«163888_j2259152798443_2_alg».proof.Proof.Gen.Kernel
import proofs.«163888_j2259152798443_2_alg».proof.Proof.Gen.Kernel.Frame
import proofs.«163888_j2259152798443_2_alg».proof.Proof.Gen.KernelIdeal
import proofs.«163888_j2259152798443_2_alg».proof.Proof.Gen.KernelIdeal.Frame
import proofs.«163888_j2259152798443_2_alg».proof.Proof.Gen.ReferenceIdeal
import proofs.«163888_j2259152798443_2_alg».proof.Proof.Gen.ReferenceIdeal.Run
import proofs.«163888_j2259152798443_2_alg».proof.Proof.Gen.ReferenceIdeal.Read
import proofs.«163888_j2259152798443_2_alg».proof.Proof.Gen.Pre_finite_inputs
import proofs.«163888_j2259152798443_2_alg».proof.Proof.RefIsMlp
import proofs.«163888_j2259152798443_2_alg».proof.Proof.KernelValue
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs to the end, faults nowhere and leaves its arguments alone. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, with its result forgotten, is its frame. -/
theorem frame_referenceIdeal : Cert.frame_ReferenceIdeal := fun m ρ _ =>
  (θ_run Cert.ReferenceIdeal.defs _ _).mono (fun _ h c => (h c).2) (Cert.ReferenceIdeal.Value.run (F := Ideal) m ρ)

/-- On the extended reals the kernel program ends with its result at the perceptron of its arguments, and the reference
    with its result at the same perceptron of arguments that agree with the kernel's. -/
theorem algebraic : Cert.algebraic_KernelIdeal_ReferenceIdeal := by
  intro m ρ m' ρ' _ hagree
  refine ⟨fun c => Cert.Mlp.mlp (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (fun t h => (m ((c.tc : Thread Cert.KernelIdeal.nD Cert.KernelIdeal.τ).loc Cert.KernelIdeal.main_arg2)
        : Cert.KernelIdeal.S32x128.Idx → EReal) (ix2 t h))
      (m ((c.tc : Thread Cert.KernelIdeal.nD Cert.KernelIdeal.τ).loc Cert.KernelIdeal.main_arg3))
      (fun t => (m ((c.tc : Thread Cert.KernelIdeal.nD Cert.KernelIdeal.τ).loc Cert.KernelIdeal.main_arg4)
        : Cert.KernelIdeal.S32x1.Idx → EReal) (ix2 t (0 : Fin 1))),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.ReferenceIdeal.RefValue.result_eq,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
